-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) (main_arg1 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x4 : Shape := ⟨2, ![4000000, 4]⟩
abbrev S1x1 : Shape := ⟨2, ![1, 1]⟩
abbrev S8000x4 : Shape := ⟨2, ![8000, 4]⟩
abbrev S8000 : Shape := ⟨1, ![8000]⟩
abbrev S8000x1 : Shape := ⟨2, ![8000, 1]⟩
abbrev S1 : Shape := ⟨1, ![1]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S4000000x4, .f32⟩
  | .hbm, ⟨1, _⟩ => ⟨S4000000x4, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .i1⟩
  | .hbm, ⟨13, _⟩ => ⟨S_, .i1⟩
  | .hbm, ⟨14, _⟩ => ⟨S_, .f32⟩
  | .hbm, ⟨15, _⟩ => ⟨S_, .f32⟩
  | .local _ .vmem, ⟨0, _⟩ => ⟨S8000x4, .f32⟩
  | .local _ .vmem, ⟨1, _⟩ => ⟨S8000x4, .f32⟩
  | .local _ .vmem, ⟨2, _⟩ => ⟨S8000x4, .f32⟩
  | .local _ .vmem, ⟨3, _⟩ => ⟨S8000x4, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![500], ![false]⟩

def k0_cond2 (i : grid0.Coords) : BitVec 1 :=
  let arg0 : BitVec 32 := BitVec.ofNat 32 (i 0).val
  let c499_i32 : BitVec 32 := 499#32
  let v89 : BitVec 1 := Scalar.cmpi .eq arg0 c499_i32
  let v90 : BitVec 32 := Scalar.extui v89
  let c0_i32_35 : BitVec 32 := 0#32
  let v91 : BitVec 1 := Scalar.cmpi .ne v90 c0_i32_35
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x4_S8000x4_0_0 : ∀ a, (![0, 0] : Fin 2 → Nat) a + S8000x4.size a ≤ S8000x4.size a
  h_S8000x4 : 0 < S8000x4.numel
  reduces_S8000x4_S8000 : S8000x4.Reduces [1] S8000
  shapeCasts_S8000_S8000x1 : S8000.ShapeCasts S8000x1
  broadcasts_S8000x1_S8000x4 : S8000x1.Broadcasts S8000x4
  reduces_S8000x1_S1 : S8000x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S4000000x4.size a
  hwx0_0 : ∀ i : grid0.Coords, EltTy.bits .f32 = 32 ∨ (Rect.block (s := S4000000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S4000000x4.size a
  hwx0_1 : ∀ i : grid0.Coords, EltTy.bits .f32 = 32 ∨ (Rect.block (s := S4000000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩

abbrev nBuf : Space → Nat
  | .hbm => 93
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x4, .f32⟩
  | .hbm, ⟨2, _⟩ => ⟨S_, .f32⟩
  | .hbm, ⟨3, _⟩ => ⟨S4000000, .f32⟩
  | .hbm, ⟨4, _⟩ => ⟨S4000000x1, .f32⟩
  | .hbm, ⟨5, _⟩ => ⟨S_, .f32⟩
  | .hbm, ⟨6, _⟩ => ⟨S4000000x1, .f32⟩
  | .hbm, ⟨7, _⟩ => ⟨S4000000x1, .f32⟩
  | .hbm, ⟨8, _⟩ => ⟨S_, .f32⟩
  | .hbm, ⟨9, _⟩ => ⟨S4000000, .f32⟩
  | .hbm, ⟨10, _⟩ => ⟨S4000000x1, .f32⟩
  | .hbm, ⟨11, _⟩ => ⟨S_, .f32⟩
  | .hbm, ⟨12, _⟩ => ⟨S4000000x1, .f32⟩
  | .hbm, ⟨13, _⟩ => ⟨S4000000x1, .f32⟩
  | .hbm, ⟨14, _⟩ => ⟨S4000000x4, .f32⟩
  | .hbm, ⟨15, _⟩ => ⟨S4000000x4, .f32⟩
  | .hbm, ⟨16, _⟩ => ⟨S4000000x4, .f32⟩
  | .hbm, ⟨17, _⟩ => ⟨S4000000x4, .f32⟩
  | .hbm, ⟨18, _⟩ => ⟨S4000000x4, .f32⟩
  | .hbm, ⟨19, _⟩ => ⟨S_, .f32⟩
  | .hbm, ⟨20, _⟩ => ⟨S4000000, .f32⟩
  | .hbm, ⟨21, _⟩ => ⟨S4000000x1, .f32⟩
  | .hbm, ⟨22, _⟩ => ⟨S_, .f32⟩
  | .hbm, ⟨23, _⟩ => ⟨S4000000x1, .f32⟩
  | .hbm, ⟨24, _⟩ => ⟨S4000000x1, .f32⟩
  | .hbm, ⟨25, _⟩ => ⟨S4000000x4, .f32⟩
  | .hbm, ⟨26, _⟩ => ⟨S_, .f32⟩
  | .hbm, ⟨27, _⟩ => ⟨S4000000, .f32⟩
  | .hbm, ⟨28, _⟩ => ⟨S4000000x1, .f32⟩
  | .hbm, ⟨29, _⟩ => ⟨S_, .f32⟩
  | .hbm, ⟨30, _⟩ => ⟨S4000000x1, .f32⟩
  | .hbm, ⟨31, _⟩ => ⟨S4000000x1, .f32⟩
  | .hbm, ⟨32, _⟩ => ⟨S4000000x4, .f32⟩
  | .hbm, ⟨33, _⟩ => ⟨S_, .f32⟩
  | .hbm, ⟨34, _⟩ => ⟨S4000000, .f32⟩
  | .hbm, ⟨35, _⟩ => ⟨S4000000x1, .f32⟩
  | .hbm, ⟨36, _⟩ => ⟨S_, .f32⟩
  | .hbm, ⟨37, _⟩ => ⟨S4000000x1, .f32⟩
  | .hbm, ⟨38, _⟩ => ⟨S4000000x1, .f32⟩
  | .hbm, ⟨39, _⟩ => ⟨S_, .f32⟩
  | .hbm, ⟨40, _⟩ => ⟨S4000000x1, .f32⟩
  | .hbm, ⟨41, _⟩ => ⟨S4000000x1, .f32⟩
  | .hbm, ⟨42, _⟩ => ⟨S4000000x1, .f32⟩
  | .hbm, ⟨43, _⟩ => ⟨S_, .f32⟩
  | .hbm, ⟨44, _⟩ => ⟨S4000000x1, .f32⟩
  | .hbm, ⟨45, _⟩ => ⟨S4000000x1, .f32⟩
  | .hbm, ⟨46, _⟩ => ⟨S_, .f32⟩
  | .hbm, ⟨47, _⟩ => ⟨S4000000x1, .f32⟩
  | .hbm, ⟨48, _⟩ => ⟨S4000000x1, .f32⟩
  | .hbm, ⟨49, _⟩ => ⟨S_, .f32⟩
  | .hbm, ⟨50, _⟩ => ⟨S4000000x1, .f32⟩
  | .hbm, ⟨51, _⟩ => ⟨S4000000x1, .f32⟩
  | .hbm, ⟨52, _⟩ => ⟨S4000000x1, .f32⟩
  | .hbm, ⟨53, _⟩ => ⟨S4000000x1, .f32⟩
  | .hbm, ⟨54, _⟩ => ⟨S4000000x1, .f32⟩
  | .hbm, ⟨55, _⟩ => ⟨S_, .f32⟩
  | .hbm, ⟨56, _⟩ => ⟨S4000000x1, .f32⟩
  | .hbm, ⟨57, _⟩ => ⟨S4000000x1, .f32⟩
  | .hbm, ⟨58, _⟩ => ⟨S4000000x1, .f32⟩
  | .hbm, ⟨59, _⟩ => ⟨S_, .f32⟩
  | .hbm, ⟨60, _⟩ => ⟨S4000000x1, .f32⟩
  | .hbm, ⟨61, _⟩ => ⟨S4000000x1, .f32⟩
  | .hbm, ⟨62, _⟩ => ⟨S4000000x1, .f32⟩
  | .hbm, ⟨63, _⟩ => ⟨S4000000x1, .f32⟩
  | .hbm, ⟨64, _⟩ => ⟨S_, .f32⟩
  | .hbm, ⟨65, _⟩ => ⟨S4000000x1, .f32⟩
  | .hbm, ⟨66, _⟩ => ⟨S4000000x1, .f32⟩
  | .hbm, ⟨67, _⟩ => ⟨S4000000x1, .f32⟩
  | .hbm, ⟨68, _⟩ => ⟨S_, .f32⟩
  | .hbm, ⟨69, _⟩ => ⟨S4000000x1, .f32⟩
  | .hbm, ⟨70, _⟩ => ⟨S4000000x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S4000000x4, .i1⟩
  | .hbm, ⟨79, _⟩ => ⟨S_, .i1⟩
  | .hbm, ⟨80, _⟩ => ⟨S_, .i1⟩
  | .hbm, ⟨81, _⟩ => ⟨S_, .i1⟩
  | .hbm, ⟨82, _⟩ => ⟨S4000000x4, .i1⟩
  | .hbm, ⟨83, _⟩ => ⟨S_, .i1⟩
  | .hbm, ⟨84, _⟩ => ⟨S_, .i1⟩
  | .hbm, ⟨85, _⟩ => ⟨S_, .i1⟩
  | .hbm, ⟨86, _⟩ => ⟨S_, .f32⟩
  | .hbm, ⟨87, _⟩ => ⟨S4000000x4, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_cst_11 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_13 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_14 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_15 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_16 : Ref sig .tc := ⟨.hbm, 68, rfl⟩
abbrev main_v49 : Ref sig .tc := ⟨.hbm, 69, rfl⟩
abbrev main_v50 : Ref sig .tc := ⟨.hbm, 70, rfl⟩
abbrev main_cst_17 : Ref sig .tc := ⟨.hbm, 71, rfl⟩
abbrev main_v51 : Ref sig .tc := ⟨.hbm, 72, rfl⟩
abbrev main_cst_18 : Ref sig .tc := ⟨.hbm, 73, rfl⟩
abbrev main_v52 : Ref sig .tc := ⟨.hbm, 74, rfl⟩
abbrev main_cst_19 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_20 : Ref sig .tc := ⟨.hbm, 83, rfl⟩
abbrev main_v59 : Ref sig .tc := ⟨.hbm, 84, rfl⟩
abbrev main_v60 : Ref sig .tc := ⟨.hbm, 85, rfl⟩
abbrev main_cst_21 : Ref sig .tc := ⟨.hbm, 86, rfl⟩
abbrev main_v61 : Ref sig .tc := ⟨.hbm, 87, rfl⟩
abbrev main_cst_22 : Ref sig .tc := ⟨.hbm, 88, rfl⟩
abbrev main_v62 : Ref sig .tc := ⟨.hbm, 89, rfl⟩
abbrev main_cst_23 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  reducesTo_S4000000x1_S_d0_1 : S4000000x1.ReducesTo [0, 1] S_
  reducesTo_S4000000x4_S_d0_1 : S4000000x4.ReducesTo [0, 1] S_
  bcast_S_S4000000x4 : S_.BroadcastsInDim S4000000x4 (![] : Fin 0 → Fin S4000000x4.rank)

variable [Facts₀]

class Facts : Prop extends Facts₀ where

variable [Facts]
-- ==== Proof.RowLoss.lean ====
/-
  The loss of one row, the total over all rows, and the one law that joins the two programs.

  For a row `x` of the prediction and a row `y` of the target (four entries each) let `mean x = (Σ x) / 4`,
  `cov x y = (Σ_k (x k - mean x) · (y k - mean y)) · c` with `c` the f32 word nearest 1/3 (so `cov x x` is the
  variance), and with `δ` the f32 word nearest 0.1

      loss x y = 1 - ((2 · mean x · mean y + δ) · (2 · cov x y + δ))
                       / ((mean x · mean x + mean y · mean y + δ) · (cov x x + cov y y + δ) + δ),

  every operation the exact one on the extended reals. The result of both programs is
  `1 · ((Σ over the 4 000 000 rows of loss) / 4 000 000)`.

  The law: addition of extended reals is commutative and associative (also at the infinities), so the sum over the
  4 000 000 rows is the sum over 500 consecutive blocks of the sums over each block's 8 000 rows; the running sum
  over the first `n` blocks grows by one block's sum at a time and is the total at `n = 500`. Nothing here needs
  the entries to be finite.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Ssim

/-! ## One row -/

/-- The mean of a row: the sum of its four entries divided by the word of 4. -/
def rowMean (x : Fin 4 → EReal) : EReal :=
  Ideal.div (∑ k : Fin 4, x k) (Ideal.ofBits .f32 0x40800000#32)

/-- The sum of the products of the centred entries of two rows, times the word nearest 1/3. -/
def rowCov (x y : Fin 4 → EReal) : EReal :=
  (∑ k : Fin 4, (x k - rowMean x) * (y k - rowMean y)) * Ideal.ofBits .f32 0x3EAAAAAB#32

/-- The loss of one row of the prediction against the same row of the target. -/
def rowLoss (x y : Fin 4 → EReal) : EReal :=
  Ideal.ofBits .f32 0x3F800000#32 - Ideal.div
    ((Ideal.ofBits .f32 0x40000000#32 * rowMean x * rowMean y + Ideal.ofBits .f32 0x3DCCCCCD#32)
      * (Ideal.ofBits .f32 0x40000000#32 * rowCov x y + Ideal.ofBits .f32 0x3DCCCCCD#32))
    ((rowMean x * rowMean x + rowMean y * rowMean y + Ideal.ofBits .f32 0x3DCCCCCD#32)
      * (rowCov x x + rowCov y y + Ideal.ofBits .f32 0x3DCCCCCD#32) + Ideal.ofBits .f32 0x3DCCCCCD#32)

/-! ## Arrays of rows -/

/-- Row `r` of an array with `n` rows of four entries. -/
def rowOf {n : Nat} (X : (⟨2, ![n, 4]⟩ : Shape).Idx → EReal) (r : Fin n) : Fin 4 → EReal := fun k => X (ix2 r k)

/-- The loss of row `r` of two arrays with `n` rows. -/
def lossAt {n : Nat} (X Y : (⟨2, ![n, 4]⟩ : Shape).Idx → EReal) (r : Fin n) : EReal :=
  rowLoss (rowOf X r) (rowOf Y r)

/-- The sum of the losses of all `n` rows. -/
def total {n : Nat} (X Y : (⟨2, ![n, 4]⟩ : Shape).Idx → EReal) : EReal := ∑ r : Fin n, lossAt X Y r

/-- From the sum of the losses to the result: divided by the word of 4 000 000, then times the word of 1. -/
def finish (s : EReal) : EReal :=
  Ideal.ofBits .f32 0x3F800000#32 * Ideal.div s (Ideal.ofBits .f32 0x4A742400#32)

/-- The result of both programs, as a function of the two argument arrays. -/
def result (X Y : (⟨2, ![4000000, 4]⟩ : Shape).Idx → EReal) : EReal := finish (total X Y)

/-! ## 4 000 000 rows are 500 blocks of 8 000 rows -/

/-- Row `p` of block `t` is row `8000 t + p` of the array. -/
def blockRow (t : Fin 500) (p : Fin 8000) : Fin 4000000 :=
  ⟨8000 * t.val + p.val, by have := t.isLt; have := p.isLt; omega⟩

theorem blockRow_val (t : Fin 500) (p : Fin 8000) : (blockRow t p).val = 8000 * t.val + p.val := rfl

/-- A sum over all rows is the sum over the blocks of the sums over each block's rows. -/
theorem sum_rows_eq_sum_blocks (f : Fin 4000000 → EReal) :
    ∑ r : Fin 4000000, f r = ∑ t : Fin 500, ∑ p : Fin 8000, f (blockRow t p) := by
  rw [← Fintype.sum_prod_type' (fun t p => f (blockRow t p))]
  refine (Fintype.sum_equiv ((finProdFinEquiv (m := 500) (n := 8000)).trans (finCongr (by norm_num))) _ _
    (fun x => ?_)).symm
  refine congrArg f (Fin.ext ?_)
  simp only [Equiv.trans_apply, finCongr_apply, Fin.val_cast, finProdFinEquiv_apply_val, blockRow_val]
  omega

/-- The sum of the losses of block `s`'s rows (zero for an `s` that is no block). -/
def blockLoss (X Y : (⟨2, ![4000000, 4]⟩ : Shape).Idx → EReal) (s : Nat) : EReal :=
  if h : s < 500 then ∑ p : Fin 8000, lossAt X Y (blockRow ⟨s, h⟩ p) else 0

theorem blockLoss_of_lt (X Y : (⟨2, ![4000000, 4]⟩ : Shape).Idx → EReal) (t : Fin 500) :
    blockLoss X Y t.val = ∑ p : Fin 8000, lossAt X Y (blockRow t p) := by
  unfold blockLoss; rw [dif_pos t.isLt]

/-- The running sum over the first `n` blocks. -/
def partialLoss (X Y : (⟨2, ![4000000, 4]⟩ : Shape).Idx → EReal) (n : Nat) : EReal :=
  ∑ s ∈ Finset.range n, blockLoss X Y s

theorem partialLoss_zero (X Y : (⟨2, ![4000000, 4]⟩ : Shape).Idx → EReal) : partialLoss X Y 0 = 0 := by
  unfold partialLoss; rw [Finset.range_zero, Finset.sum_empty]

theorem partialLoss_succ (X Y : (⟨2, ![4000000, 4]⟩ : Shape).Idx → EReal) (n : Nat) :
    partialLoss X Y (n + 1) = partialLoss X Y n + blockLoss X Y n := by
  unfold partialLoss; rw [Finset.sum_range_succ]

/-- After all 500 blocks the running sum is the total. -/
theorem partialLoss_all (X Y : (⟨2, ![4000000, 4]⟩ : Shape).Idx → EReal) : partialLoss X Y 500 = total X Y := by
  unfold partialLoss total
  rw [sum_rows_eq_sum_blocks, ← Fin.sum_univ_eq_sum_range (fun s => blockLoss X Y s) 500]
  exact Finset.sum_congr rfl fun t _ => blockLoss_of_lt X Y t

end Cert.Ssim

end
-- ==== Proof.LibGuardZero.lean ====
/-
  A guard against a number that differs from itself, read at the extended reals, and a sum down the rows.

  Kernels and host programs that guard against NaN compare a value with itself, reduce the comparison bits (the kernel
  as floats under a maximum from -∞, the host as bits under "or" from false) and branch on the result. On the extended
  reals the order is linear and every number equals itself, so every comparison bit is 0; the float conversion of the
  bit 0 is the real 0; a maximum folded from a start at most 0 over a nonempty set of zeros is 0; an "or" folded from
  the bit 0 over any list of zero bits is 0. So the guard is never taken. General over shapes and extents: nothing here
  names a kernel. Also here: the f32 sum along the FIRST axis of an `[a, b]` array at column `c` is the sum over the
  `a` entries of that column (the twin of a lane sum along the second axis).
-/
import Idealize.ShloMosaic.Lib.ValueIdx
import Idealize.ShloMosaic.Lib.ReduceAll
import Idealize.ShloMosaic.PureOps.Reduce
import Idealize.ShloMosaic.PureOps.Ideal
import Idealize.ShloMosaic.PureOps.Ideal.Laws

noncomputable section

namespace Cert.LibGuardZero

open Idealize.ShloMosaic Idealize.ShloMosaic.ValueIdx
open scoped BigOperators

/-! ## A sum down the rows -/

/-- At the ideal values the f32 sum along the first axis of an `[a, b]` array, its accumulator the zero word, is at
    column `c` the sum over the `a` entries of that column: the index the reduction inserts coordinate `k` into, over
    `c`, is `(k, c)`. -/
theorem rowSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  refine Finset.sum_congr rfl fun k _ => congrArg src ?_
  funext d
  apply Fin.ext
  match d with
  | ⟨0, _⟩ => rfl
  | ⟨1, _⟩ => rfl

/-! ## The kernel's flag: a value compared with itself, converted, and reduced by a maximum -/

/-- `v ≠ v` is false at every extended real, so the comparison is the bit 0, widened it is the word 0, and converted it
    is the real 0: the array of the flags of `v` is the constant 0. -/
theorem selfNe_zero {s : Shape} (v : FVec Ideal s .f32) (hw : 1 < 32) :
    (sitofp .f32 (extui 32 (cmpf .one v v) hw) : FVec Ideal s .f32) = fun _ => (0 : EReal) := by
  funext i
  show (((BitVec.setWidth 32 (Ideal.cmp .one (v i) (v i))).toInt : ℝ) : EReal) = 0
  have h0 : Ideal.cmp .one (v i) (v i) = 0#1 := by simp [Ideal.cmp]
  rw [h0]
  have h1 : (BitVec.setWidth 32 (0#1)).toInt = 0 := by decide
  rw [h1]
  simp

/-- A maximum folded from a start that is at most 0 over a nonempty index set of zeros is 0. -/
theorem fold_max_zeros {n : ℕ} (hn : 0 < n) (b : EReal) (hb : b ≤ 0) (f : Fin n → EReal) (hf : ∀ k, f k = 0) :
    (Finset.univ : Finset (Fin n)).fold max b f = 0 := by
  apply le_antisymm
  · exact (Finset.fold_max_le _).2 ⟨hb, fun k _ => (hf k).le⟩
  · exact (Finset.le_fold_max _).2 (Or.inr ⟨⟨0, hn⟩, Finset.mem_univ _, (hf _).ge⟩)

/-- The word of -∞ is at most 0. -/
theorem negInf_le_zero : Ideal.ofBits .f32 0xFF800000#32 ≤ 0 := by
  have h : Ideal.ofBits .f32 0xFF800000#32 = ⊥ := by simp [Ideal.ofBits, Ideal.ieee]
  rw [h]; exact bot_le

/-- The f32 maximum along one axis of nonzero extent of an array of zeros, its accumulator the word of -∞, is 0 at
    every index. -/
theorem maxRed_zeros {s t : Shape} {a : Fin s.rank} (h : s.Reduces [a] t) (hφ : FKind.Formats .f32)
    (hacc : (0xFF800000#32 : BitVec 32) = FKind.maximumf.neutral .f32 hφ) (hn : 0 < s.size a) :
    multiReduction (F := Ideal) .maximumf [a] t (fun _ => (0 : EReal)) 0xFF800000#32 h hφ hacc = fun _ => (0 : EReal) := by
  funext j
  refine (Ideal.multiReduction_maximumf_single (φ := .f32) (fun _ => (0 : EReal)) 0xFF800000#32 h hφ hacc j).trans ?_
  exact fold_max_zeros hn _ negInf_le_zero _ fun _ => rfl

/-- A cast of a constant array is the constant array. -/
theorem shapeCast_const {s t : Shape} (c : EReal) (h : s.ShapeCasts t) :
    shapeCast t (fun _ : s.Idx => c) h = fun _ => c := rfl

/-! ## The host's guard: a value compared with itself, reduced by "or" -/

/-- No extended real differs from itself. -/
theorem cmp_une_self (a : EReal) : Ideal.cmp .une a a = 0#1 := by
  simp [Ideal.cmp]

/-- An or-fold of zero bits from the zero bit is the zero bit, over any list of indices. -/
theorem foldl_ori_zero {ι : Type} (l : List ι) :
    l.foldl (fun r (_ : ι) => IntOp.ori r (0#1 : BitVec 1)) 0#1 = 0#1 := by
  induction l with
  | nil => rfl
  | cons a l ih =>
    have h : IntOp.ori (0#1 : BitVec 1) 0#1 = 0#1 := by decide
    simp only [List.foldl_cons, h]
    exact ih

/-- An or-reduction of an array of zero bits from the zero bit is the zero bit. -/
theorem reduce_ori_zero {s t u : Shape} {axes : List (Fin s.rank)} (x : s.Idx → BitVec 1) (init : u.Idx → BitVec 1)
    (h : s.ReducesTo axes t) (hu : 0 < u.numel) (j : t.Idx) (hx : ∀ i, x i = 0#1)
    (hi : init (Shape.Idx.first hu) = 0#1) : Host.reduce IntOp.ori x init h hu j = 0#1 := by
  obtain rfl : x = fun _ => 0#1 := funext hx
  rw [Host.reduce_eq_foldl, hi]
  exact foldl_ori_zero _

end Cert.LibGuardZero

end
-- ==== Proof.RefValue.lean ====
/-
  The value of the reference program is the mean of the row losses.

  Row by row: the host sums the four entries of a row from the zero word and divides by the word of 4, which is
  the row's mean; it subtracts the mean from every entry, sums the four products of centred entries from the zero
  word and multiplies by the word nearest 1/3, which is the covariance (the variance when both rows are the same);
  and it combines the two means, the two variances and the covariance into the loss of the row in the same order
  and grouping as the specification spells it. The only facts used are that the zero word is the number 0, that
  0 + s = s, and that each generated index function reads the coordinates (r, k), (r, 0) or (r).

  All rows: the sum over the index set of the 4 000 000 x 1 column of losses is the sum over its first coordinate,
  because the second coordinate ranges over one value. Dividing by the word of 4 000 000 and multiplying by the
  word of 1 gives the specification's result.

  The guard: the program returns a different number when some entry of an argument, or the result itself, differs
  from itself. On the extended reals no number differs from itself, so every compared bit is 0, an or-fold of 0
  bits from 0 is 0 (by induction on the list of indices, whatever that list is), and the select takes its second
  branch, the mean of the losses.
-/
import proofs.«112034_j21938692948601_1_alg».proof.Proof.RowLoss
import proofs.«112034_j21938692948601_1_alg».proof.Proof.LibGuardZero
import proofs.«112034_j21938692948601_1_alg».proof.Proof.Gen.ReferenceIdeal.Read
import Idealize.ShloMosaic.Lib.ValueIdx
import Idealize.ShloMosaic.Lib.ReduceAll
import Idealize.ShloMosaic.PureOps.Reduce
import Idealize.ShloMosaic.PureOps.Ideal
import Idealize.ShloMosaic.PureOps.Ideal.Laws

noncomputable section

open Idealize.ShloMosaic Idealize.ShloMosaic.ValueIdx

namespace Cert.ReferenceIdeal.RefValue
open Cert.ReferenceIdeal Cert.ReferenceIdeal.Read Cert.LibGuardZero

/-! ## The generated index functions at coordinates -/

/-- The column entry (r, q) of a 4 000 000 x 1 array reads the rank-1 entry (r). -/
theorem col_to_vec (r : Fin 4000000) (q : Fin 1) :
    (fun a => match a with | ⟨0, _⟩ => ⟨((ix2 r q : S4000000x1.Idx) 0).val, ((ix2 r q : S4000000x1.Idx) 0).isLt⟩
      : S4000000.Idx) = ix1 r :=
  funext fun a => Fin.ext (by match a with | ⟨0, _⟩ => rfl)

/-- Entry k of the four summed at the rank-1 index (r) is the array's entry (r, k). -/
theorem vec_to_entry (r : Fin 4000000) (k : Fin 4) :
    (fun a => match a with
      | ⟨0, _⟩ => ⟨((ix1 r : S4000000.Idx) 0).val, ((ix1 r : S4000000.Idx) 0).isLt⟩
      | ⟨1, _⟩ => ⟨k.val, k.isLt⟩ : S4000000x4.Idx) = ix2 r k :=
  funext fun a => Fin.ext (by match a with | ⟨0, _⟩ => rfl | ⟨1, _⟩ => rfl)

/-- The entry (r, k) of a 4 000 000 x 4 array broadcast from a column reads the column's entry (r, 0). -/
theorem entry_to_col (r : Fin 4000000) (k : Fin 4) :
    (fun a => match a with
      | ⟨0, _⟩ => ⟨((ix2 r k : S4000000x4.Idx) 0).val, ((ix2 r k : S4000000x4.Idx) 0).isLt⟩
      | ⟨1, _⟩ => ⟨0, Nat.one_pos⟩ : S4000000x1.Idx) = ix2 r (0 : Fin 1) :=
  funext fun a => Fin.ext (by match a with | ⟨0, _⟩ => rfl | ⟨1, _⟩ => rfl)

/-! ## One row: means -/

/-- The mean column of the first argument at (r, q) is the mean of its row r. -/
theorem mean0_at (x0 : (⟨S4000000x4, .f32⟩ : BufTy).Contents (Elt Ideal)) (r : Fin 4000000) (q : Fin 1) :
    val_main_v3 (F := Ideal) x0 (ix2 r q) = Cert.Ssim.rowMean (Cert.Ssim.rowOf x0 r) := by
  rw [val_main_v3_apply, val_main_v1_apply, val_main_v2_apply, val_main_v0_apply, val_main_cst_apply,
    val_main_cst_0_apply, Ideal.hostDivf_def, Ideal.ofBits_def, Ideal.ofBits_def, Ideal.ofBits_zero_f32, zero_add]
  unfold Cert.Ssim.rowMean Cert.Ssim.rowOf
  refine congrArg (fun s => Ideal.div s _) (Finset.sum_congr rfl fun k _ => congrArg x0 ?_)
  exact funext fun a => Fin.ext (by match a with | ⟨0, _⟩ => rfl | ⟨1, _⟩ => rfl)

/-- The mean column of the second argument at (r, q) is the mean of its row r. -/
theorem mean1_at (x1 : (⟨S4000000x4, .f32⟩ : BufTy).Contents (Elt Ideal)) (r : Fin 4000000) (q : Fin 1) :
    val_main_v7 (F := Ideal) x1 (ix2 r q) = Cert.Ssim.rowMean (Cert.Ssim.rowOf x1 r) := by
  rw [val_main_v7_apply, val_main_v5_apply, val_main_v6_apply, val_main_v4_apply, val_main_cst_1_apply,
    val_main_cst_2_apply, Ideal.hostDivf_def, Ideal.ofBits_def, Ideal.ofBits_def, Ideal.ofBits_zero_f32, zero_add]
  unfold Cert.Ssim.rowMean Cert.Ssim.rowOf
  refine congrArg (fun s => Ideal.div s _) (Finset.sum_congr rfl fun k _ => congrArg x1 ?_)
  exact funext fun a => Fin.ext (by match a with | ⟨0, _⟩ => rfl | ⟨1, _⟩ => rfl)

/-! ## One row: centred entries -/

/-- The centred first argument at (r, k): the entry minus the mean of row r. -/
theorem cen0_at (x0 : (⟨S4000000x4, .f32⟩ : BufTy).Contents (Elt Ideal)) (r : Fin 4000000) (k : Fin 4) :
    val_main_v9 (F := Ideal) x0 (ix2 r k)
      = Cert.Ssim.rowOf x0 r k - Cert.Ssim.rowMean (Cert.Ssim.rowOf x0 r) := by
  rw [val_main_v9_apply, val_main_v8_apply, Ideal.subf_def]
  refine congrArg (fun m => x0 (ix2 r k) - m) ?_
  refine (congrArg (val_main_v3 (F := Ideal) x0) (entry_to_col r k)).trans ?_
  exact mean0_at x0 r 0

/-- The centred second argument at (r, k): the entry minus the mean of row r. -/
theorem cen1_at (x1 : (⟨S4000000x4, .f32⟩ : BufTy).Contents (Elt Ideal)) (r : Fin 4000000) (k : Fin 4) :
    val_main_v11 (F := Ideal) x1 (ix2 r k)
      = Cert.Ssim.rowOf x1 r k - Cert.Ssim.rowMean (Cert.Ssim.rowOf x1 r) := by
  rw [val_main_v11_apply, val_main_v10_apply, Ideal.subf_def]
  refine congrArg (fun m => x1 (ix2 r k) - m) ?_
  refine (congrArg (val_main_v7 (F := Ideal) x1) (entry_to_col r k)).trans ?_
  exact mean1_at x1 r 0

/-! ## One row: variances and covariance -/

/-- The four products of centred entries of the first argument's row r with themselves, summed. -/
theorem ss0_at (x0 : (⟨S4000000x4, .f32⟩ : BufTy).Contents (Elt Ideal)) (r : Fin 4000000) :
    val_main_v13 (F := Ideal) x0 (ix1 r)
      = ∑ k : Fin 4, (Cert.Ssim.rowOf x0 r k - Cert.Ssim.rowMean (Cert.Ssim.rowOf x0 r))
          * (Cert.Ssim.rowOf x0 r k - Cert.Ssim.rowMean (Cert.Ssim.rowOf x0 r)) := by
  rw [val_main_v13_apply, val_main_cst_3_apply, Ideal.ofBits_def, Ideal.ofBits_zero_f32, zero_add]
  refine Finset.sum_congr rfl fun k _ => ?_
  refine (congrArg (val_main_v12 (F := Ideal) x0) (vec_to_entry r k)).trans ?_
  rw [val_main_v12_apply, Ideal.mulf_def, cen0_at]

/-- The variance column of the first argument at (r, q). -/
theorem var0_at (x0 : (⟨S4000000x4, .f32⟩ : BufTy).Contents (Elt Ideal)) (r : Fin 4000000) (q : Fin 1) :
    val_main_v16 (F := Ideal) x0 (ix2 r q)
      = Cert.Ssim.rowCov (Cert.Ssim.rowOf x0 r) (Cert.Ssim.rowOf x0 r) := by
  rw [val_main_v16_apply, val_main_v14_apply, val_main_v15_apply, val_main_cst_4_apply, Ideal.mulf_def,
    Ideal.ofBits_def]
  have h : val_main_v13 (F := Ideal) x0 (idx_main_v14 (ix2 r q)) = _ :=
    (congrArg (val_main_v13 (F := Ideal) x0) (col_to_vec r q)).trans (ss0_at x0 r)
  rw [h]
  rfl

/-- The four products of centred entries of the second argument's row r with themselves, summed. -/
theorem ss1_at (x1 : (⟨S4000000x4, .f32⟩ : BufTy).Contents (Elt Ideal)) (r : Fin 4000000) :
    val_main_v18 (F := Ideal) x1 (ix1 r)
      = ∑ k : Fin 4, (Cert.Ssim.rowOf x1 r k - Cert.Ssim.rowMean (Cert.Ssim.rowOf x1 r))
          * (Cert.Ssim.rowOf x1 r k - Cert.Ssim.rowMean (Cert.Ssim.rowOf x1 r)) := by
  rw [val_main_v18_apply, val_main_cst_5_apply, Ideal.ofBits_def, Ideal.ofBits_zero_f32, zero_add]
  refine Finset.sum_congr rfl fun k _ => ?_
  refine (congrArg (val_main_v17 (F := Ideal) x1) (vec_to_entry r k)).trans ?_
  rw [val_main_v17_apply, Ideal.mulf_def, cen1_at]

/-- The variance column of the second argument at (r, q). -/
theorem var1_at (x1 : (⟨S4000000x4, .f32⟩ : BufTy).Contents (Elt Ideal)) (r : Fin 4000000) (q : Fin 1) :
    val_main_v21 (F := Ideal) x1 (ix2 r q)
      = Cert.Ssim.rowCov (Cert.Ssim.rowOf x1 r) (Cert.Ssim.rowOf x1 r) := by
  rw [val_main_v21_apply, val_main_v19_apply, val_main_v20_apply, val_main_cst_6_apply, Ideal.mulf_def,
    Ideal.ofBits_def]
  have h : val_main_v18 (F := Ideal) x1 (idx_main_v19 (ix2 r q)) = _ :=
    (congrArg (val_main_v18 (F := Ideal) x1) (col_to_vec r q)).trans (ss1_at x1 r)
  rw [h]
  rfl

/-- The four products of a centred entry of the first argument's row r with the second's, summed. -/
theorem sc_at (x0 x1 : (⟨S4000000x4, .f32⟩ : BufTy).Contents (Elt Ideal)) (r : Fin 4000000) :
    val_main_v23 (F := Ideal) x0 x1 (ix1 r)
      = ∑ k : Fin 4, (Cert.Ssim.rowOf x0 r k - Cert.Ssim.rowMean (Cert.Ssim.rowOf x0 r))
          * (Cert.Ssim.rowOf x1 r k - Cert.Ssim.rowMean (Cert.Ssim.rowOf x1 r)) := by
  rw [val_main_v23_apply, val_main_cst_7_apply, Ideal.ofBits_def, Ideal.ofBits_zero_f32, zero_add]
  refine Finset.sum_congr rfl fun k _ => ?_
  refine (congrArg (val_main_v22 (F := Ideal) x0 x1) (vec_to_entry r k)).trans ?_
  rw [val_main_v22_apply, Ideal.mulf_def, cen0_at, cen1_at]

/-- The covariance column at (r, q). -/
theorem cov_at (x0 x1 : (⟨S4000000x4, .f32⟩ : BufTy).Contents (Elt Ideal)) (r : Fin 4000000) (q : Fin 1) :
    val_main_v26 (F := Ideal) x0 x1 (ix2 r q)
      = Cert.Ssim.rowCov (Cert.Ssim.rowOf x0 r) (Cert.Ssim.rowOf x1 r) := by
  rw [val_main_v26_apply, val_main_v24_apply, val_main_v25_apply, val_main_cst_8_apply, Ideal.mulf_def,
    Ideal.ofBits_def]
  have h : val_main_v23 (F := Ideal) x0 x1 (idx_main_v24 (ix2 r q)) = _ :=
    (congrArg (val_main_v23 (F := Ideal) x0 x1) (col_to_vec r q)).trans (sc_at x0 x1 r)
  rw [h]
  rfl

/-! ## One row: the loss -/

/-- The loss column at (r, q) is the loss of row r. -/
theorem loss_at (x0 x1 : (⟨S4000000x4, .f32⟩ : BufTy).Contents (Elt Ideal)) (r : Fin 4000000) (q : Fin 1) :
    val_main_v50 (F := Ideal) x0 x1 (ix2 r q) = Cert.Ssim.lossAt x0 x1 r := by
  rw [val_main_v50_apply, val_main_v49_apply, val_main_cst_16_apply, val_main_v48_apply,
    val_main_v44_apply, val_main_v47_apply, val_main_v31_apply, val_main_v35_apply, val_main_v45_apply,
    val_main_v46_apply, val_main_cst_15_apply, val_main_v29_apply, val_main_v30_apply, val_main_cst_10_apply,
    val_main_v28_apply, val_main_v27_apply, val_main_cst_9_apply, val_main_v33_apply, val_main_v34_apply,
    val_main_cst_12_apply, val_main_v32_apply, val_main_cst_11_apply, val_main_v40_apply, val_main_v43_apply,
    val_main_v38_apply, val_main_v39_apply, val_main_cst_13_apply, val_main_v36_apply, val_main_v37_apply,
    val_main_v41_apply, val_main_v42_apply, val_main_cst_14_apply,
    mean0_at, mean1_at, var0_at, var1_at, cov_at]
  simp only [Ideal.subf_def, Ideal.hostDivf_def, Ideal.mulf_def, Ideal.addf_def, Ideal.ofBits_def]
  rfl

/-! ## All rows -/

/-- The sum of the loss column over its whole index set is the sum of the row losses. -/
theorem total_at (x0 x1 : (⟨S4000000x4, .f32⟩ : BufTy).Contents (Elt Ideal)) (i : S_.Idx) :
    val_main_v51 (F := Ideal) x0 x1 i = Cert.Ssim.total x0 x1 := by
  rw [val_main_v51_apply, val_main_cst_17_apply, Ideal.ofBits_def, Ideal.ofBits_zero_f32, zero_add]
  unfold Cert.Ssim.total
  refine (sum_idx2 (n0 := 4000000) (n1 := 1) (val_main_v50 (F := Ideal) x0 x1)).trans ?_
  refine Finset.sum_congr rfl fun r _ => ?_
  rw [Fin.sum_univ_one]
  exact loss_at x0 x1 r 0

/-- The mean of the losses, as the program spells it, is the specification's result. -/
theorem mean_at (x0 x1 : (⟨S4000000x4, .f32⟩ : BufTy).Contents (Elt Ideal)) (i : S_.Idx) :
    val_main_v53 (F := Ideal) x0 x1 i = Cert.Ssim.result x0 x1 := by
  rw [val_main_v53_apply, val_main_cst_19_apply, val_main_v52_apply, val_main_cst_18_apply, total_at,
    Ideal.mulf_def, Ideal.hostDivf_def, Ideal.ofBits_def, Ideal.ofBits_def]
  rfl

/-! ## The guard is never taken -/

/-- The guard bit is 0. -/
theorem guard_at (x0 x1 : (⟨S4000000x4, .f32⟩ : BufTy).Contents (Elt Ideal)) (i : S_.Idx) :
    val_main_v60 (F := Ideal) x0 x1 i = 0#1 := by
  have h56 : val_main_v56 (F := Ideal) x0 i = 0#1 := by
    unfold val_main_v56
    exact reduce_ori_zero _ _ _ _ _ (fun j => by rw [val_main_v55_apply, Ideal.cmpf_def, cmp_une_self]) rfl
  have h59 : val_main_v59 (F := Ideal) x1 i = 0#1 := by
    unfold val_main_v59
    exact reduce_ori_zero _ _ _ _ _ (fun j => by rw [val_main_v58_apply, Ideal.cmpf_def, cmp_une_self]) rfl
  rw [val_main_v60_apply, val_main_v57_apply, val_main_v54_apply, Ideal.cmpf_def, cmp_une_self, h56, h59]
  decide

/-! ## The reference's value -/

/-- The reference program returns the specification's result. -/
theorem ref_result (x0 x1 : (⟨S4000000x4, .f32⟩ : BufTy).Contents (Elt Ideal)) :
    val_main_v64 (F := Ideal) x0 x1 = fun _ => Cert.Ssim.result x0 x1 := by
  funext i
  rw [val_main_v64_apply, guard_at, select_zero, mean_at]

end Cert.ReferenceIdeal.RefValue

end
-- ==== Proof.Pieces.lean ====
/-
  What the kernel body leaves behind at a grid point, read back as values.

  The body keeps two one-entry accumulators across the grid points: a running sum and a running flag. At every point it
  loads the two input blocks, replaces the sum by `sum + (the block's contribution)` and the flag by
  `max flag (the block's flag)`; at the first point it first stores zero into both, so the values it reads there are the
  zeros it has just written; at the last point it also copies the two new values to the two outputs. Each store covers
  its whole one-entry buffer, so what a buffer holds afterwards is the payload of the last store into it, with every load
  replaced by what the loaded buffer held. These are statements about stores and loads only: they hold at every
  instance of the float operations.
-/
import proofs.«112034_j21938692948601_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The new running sum from the two input blocks and the old one. -/
abbrev sumStep (x0 x1 : Vec F S8000x4 .f32) (a : Vec F S1x1 .f32) : Vec F S1x1 .f32 :=
  k0_pay14 (k0_pay4 x0) (k0_pay5 x1) (k0_pay8 x0) (k0_pay9 x1) (k0_pay10 x0 x1) (k0_pay11 x0 x1) a

/-- The new running flag from the two input blocks and the old one. -/
abbrev flagStep (x0 x1 : Vec F S8000x4 .f32) (a : Vec F S1x1 .f32) : Vec F S1x1 .f32 :=
  k0_pay1 (k0_pay13 x0 x1 (k0_pay4 x0) (k0_pay5 x1) (k0_pay8 x0) (k0_pay9 x1) (k0_pay10 x0 x1) (k0_pay11 x0 x1)) a

/-! ## The first point: the accumulators are zeroed, then updated -/

/-- At the first point the running sum ends at the update of the zero just stored. -/
theorem sum_first (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S8000x4 .f32) :
    sout0_A_0 c i a1 h1 a2 h2 a3 h3 a4 h4 a5 h5 a6 h6 hc0 hc1 x0 x1 = sumStep x0 x1 k0_pay2 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h5.read_unread, h6.read_unread, View.ld_unit_zero (S := S8000x4) hz, View.ld_unit_zero (S := S1x1) hz]

/-- At the first point the running flag ends at the update of the zero just stored. -/
theorem flag_first (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S8000x4 .f32) :
    sout0_A_1 c i a1 h1 a2 h2 a3 h3 a4 h4 a5 h5 a6 h6 hc0 hc1 x0 x1 = flagStep x0 x1 k0_pay3 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h5.read_unread, h6.read_unread, View.ld_unit_zero (S := S8000x4) hz, View.ld_unit_zero (S := S1x1) hz]

/-! ## A middle point: the accumulators are updated from what the point before left -/

/-- At a middle point the running sum ends at the update of what it held. -/
theorem sum_mid (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S8000x4 .f32) (xs0 xs1 : Vec F S1x1 .f32) :
    sout0_B_0 c i a1 h1 a2 h2 a3 h3 a4 h4 a5 h5 a6 h6 hc0 hc1 x0 x1 xs0 xs1 = sumStep x0 x1 xs0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, h6.read_unread, View.ld_unit_zero (S := S8000x4) hz, View.ld_unit_zero (S := S1x1) hz]

/-- At a middle point the running flag ends at the update of what it held. -/
theorem flag_mid (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S8000x4 .f32) (xs0 xs1 : Vec F S1x1 .f32) :
    sout0_B_1 c i a1 h1 a2 h2 a3 h3 a4 h4 a5 h5 a6 h6 hc0 hc1 x0 x1 xs0 xs1 = flagStep x0 x1 xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz]
  simp only [View.readAt_eq_ld, h1.read_unread, h2.read_unread, h5.read_unread, h6.read_unread, View.ld_unit_zero (S := S8000x4) hz, View.ld_unit_zero (S := S1x1) hz]

/-! ## The last point: updated as at a middle point, and copied to the outputs -/

/-- At the last point the running sum ends at the update of what it held. -/
theorem sum_last (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8000x4 .f32) (xs0 xs1 : Vec F S1x1 .f32) :
    sout0_C_0 c i a1 h1 a2 h2 a3 h3 a4 h4 a5 h5 a6 h6 hc0 hc1 x0 x1 xs0 xs1 = sumStep x0 x1 xs0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, h6.read_unread, View.ld_unit_zero (S := S8000x4) hz, View.ld_unit_zero (S := S1x1) hz]

/-- At the last point the running flag ends at the update of what it held. -/
theorem flag_last (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8000x4 .f32) (xs0 xs1 : Vec F S1x1 .f32) :
    sout0_C_1 c i a1 h1 a2 h2 a3 h3 a4 h4 a5 h5 a6 h6 hc0 hc1 x0 x1 xs0 xs1 = flagStep x0 x1 xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz]
  simp only [View.readAt_eq_ld, h1.read_unread, h2.read_unread, h5.read_unread, h6.read_unread, View.ld_unit_zero (S := S8000x4) hz, View.ld_unit_zero (S := S1x1) hz]

/-- At the last point the first output receives the new running sum. -/
theorem out_sum_last (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8000x4 .f32) (xs0 xs1 : Vec F S1x1 .f32) :
    out0_C_2 c i a1 h1 a2 h2 a3 h3 a4 h4 a5 h5 a6 h6 hc0 hc1 x0 x1 xs0 xs1 = sumStep x0 x1 xs0 := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, h6.read_unread, View.ld_unit_zero (S := S8000x4) hz, View.ld_unit_zero (S := S1x1) hz]

/-- At the last point the second output receives the new running flag. -/
theorem out_flag_last (c : Dev nD) (i : grid0.Coords) (a1 : Memref sig .tc .vmem S8000x4 .f32) (h1 : a1.IsWhole) (a2 : Memref sig .tc .vmem S8000x4 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8000x4 .f32) (xs0 xs1 : Vec F S1x1 .f32) :
    out0_C_3 c i a1 h1 a2 h2 a3 h3 a4 h4 a5 h5 a6 h6 hc0 hc1 x0 x1 xs0 xs1 = flagStep x0 x1 xs1 := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz, View.readCov_unit_zero (S := S1x1) _ hz]
  simp only [View.readAt_eq_ld, h1.read_unread, h2.read_unread, h5.read_unread, h6.read_unread, View.ld_unit_zero (S := S8000x4) hz, View.ld_unit_zero (S := S1x1) hz]

end Cert.KernelIdeal.Pieces

end
-- ==== Proof.Steps.lean ====
/-
  The grid's points one at a time.

  The grid has 500 points; point `t` is handed rows `8000 t … 8000 t + 7999` of each input array as its block. What the
  two accumulators (and, at the last point, the two outputs) hold after point `t` is: at the first point the update of
  zero by the first blocks; at every later point the update, by that point's blocks, of what the point before left;
  and at the last point the outputs receive the accumulators' new values. Stores, loads and index arithmetic only:
  these hold at every instance of the float operations.
-/
import proofs.«112034_j21938692948601_1_alg».proof.Proof.Pieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Steps

open Cert.KernelIdeal Cert.KernelIdeal.Gen Cert.KernelIdeal.Pieces

variable {F : FTy → Type} [FloatOps F]
variable (m : (ℓ : Loc nD τ sig) → Buf (Elt F) ℓ)

/-! ## What the accumulators and outputs hold after a point -/

/-- After the first point: both accumulators at the update of zero by the first blocks. -/
theorem after_first (c : Dev nD) (t : Fin cfg0.N) (h0 : t.val % 500 = 0) (h1 : ¬t.val % 500 = 499) :
    (outsAt0 m c t.val t.isLt).2.2.1 = sumStep (iblk m c 0 t) (iblk m c 1 t) k0_pay2
    ∧ (outsAt0 m c t.val t.isLt).2.2.2 = flagStep (iblk m c 0 t) (iblk m c 1 t) k0_pay3 := by
  rw [outsAt0_A m c t h0 h1]
  exact ⟨sum_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    flag_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- After a middle point: both accumulators at the update, by the point's blocks, of what the point before left. -/
theorem after_mid (c : Dev nD) (t : Fin cfg0.N) (h0 : ¬t.val % 500 = 0) (h1 : ¬t.val % 500 = 499) :
    (outsAt0 m c t.val t.isLt).2.2.1
      = sumStep (iblk m c 0 t) (iblk m c 1 t) (outsAt0 m c (t.val - 1) (Nat.lt_of_le_of_lt (Nat.sub_le _ _) t.isLt)).2.2.1
    ∧ (outsAt0 m c t.val t.isLt).2.2.2
      = flagStep (iblk m c 0 t) (iblk m c 1 t) (outsAt0 m c (t.val - 1) (Nat.lt_of_le_of_lt (Nat.sub_le _ _) t.isLt)).2.2.2 := by
  rw [outsAt0_B m c t h0 h1]
  exact ⟨sum_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.2.1 (outsAt0 m c (t.val - 1) (Nat.lt_of_le_of_lt (Nat.sub_le _ _) t.isLt)).2.2.2,
    flag_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.2.1 (outsAt0 m c (t.val - 1) (Nat.lt_of_le_of_lt (Nat.sub_le _ _) t.isLt)).2.2.2⟩

/-- After the last point: the accumulators as after a middle point, and each output at its accumulator's new value. -/
theorem after_last (c : Dev nD) (t : Fin cfg0.N) (h0 : ¬t.val % 500 = 0) (h1 : t.val % 500 = 499) :
    ((outsAt0 m c t.val t.isLt).2.2.1
      = sumStep (iblk m c 0 t) (iblk m c 1 t) (outsAt0 m c (t.val - 1) (Nat.lt_of_le_of_lt (Nat.sub_le _ _) t.isLt)).2.2.1
    ∧ (outsAt0 m c t.val t.isLt).2.2.2
      = flagStep (iblk m c 0 t) (iblk m c 1 t) (outsAt0 m c (t.val - 1) (Nat.lt_of_le_of_lt (Nat.sub_le _ _) t.isLt)).2.2.2)
    ∧ (outsAt0 m c t.val t.isLt).1 = (outsAt0 m c t.val t.isLt).2.2.1
    ∧ (outsAt0 m c t.val t.isLt).2.1 = (outsAt0 m c t.val t.isLt).2.2.2 := by
  rw [outsAt0_C m c t h0 h1]
  have e0 := sum_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2
  have e1 := flag_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2
  have e2 := out_sum_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2
  have e3 := out_flag_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.2.1 (outsAt0 m c (t.val - 1) (Nat.lt_of_le_of_lt (Nat.sub_le _ _) t.isLt)).2.2.2
  exact ⟨⟨e0, e1⟩, e2.trans e0.symm, e3.trans e1.symm⟩

/-! ## A point's blocks are rows of the arrays -/

/-- The two input windows' block index at point `t` is `(t, 0)`: decided once over the grid. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- A point of the grid as a number below 500. -/
def pt (t : Fin cfg0.N) : Fin 500 := ⟨t.val, lt_of_lt_of_eq t.isLt (show cfg0.N = 500 from N_0)⟩

/-- Row `p` of point `t`'s block, as a row of the whole array: row `8000 t + p`. -/
def rowAt (t : Fin cfg0.N) (p : Fin 8000) : Fin 4000000 :=
  ⟨8000 * t.val + p.val, by have := (pt t).isLt; have hp := p.isLt; show 8000 * (pt t).val + p.val < 4000000; omega⟩

/-- Entry `(p, k)` of the first input's block at point `t` is entry `(8000 t + p, k)` of the first argument array. -/
theorem iblk0_apply (c : Dev nD) (t : Fin cfg0.N) (p : Fin 8000) (k : Fin 4) :
    (iblk m c 0 t : Vec F S8000x4 .f32) (ix2 p k) = m ((c : Thread nD τ).loc main_arg0) (ix2 (rowAt t p) k) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 8000 + 1 * p.val = 8000 * t.val + p.val; rw [(index0 t).1]; omega
  | ⟨1, _⟩ => show win0_0.index t 1 * 4 + 1 * k.val = k.val; rw [(index0 t).2]; omega

/-- Entry `(p, k)` of the second input's block at point `t` is entry `(8000 t + p, k)` of the second argument array. -/
theorem iblk1_apply (c : Dev nD) (t : Fin cfg0.N) (p : Fin 8000) (k : Fin 4) :
    (iblk m c 1 t : Vec F S8000x4 .f32) (ix2 p k) = m ((c : Thread nD τ).loc main_arg1) (ix2 (rowAt t p) k) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 8000 + 1 * p.val = 8000 * t.val + p.val; rw [(index1 t).1]; omega
  | ⟨1, _⟩ => show win0_1.index t 1 * 4 + 1 * k.val = k.val; rw [(index1 t).2]; omega

end Cert.KernelIdeal.Steps

end
-- ==== Proof.LibKeepdims.lean ====
/-
  A keepdims column, a column laid along the features, and a sum along the features, each read at an index given by
  coordinates; and the square root read at an index. General over the extents: nothing here names a kernel.

  A row-wise normalisation sums an `[a, b]` array along its second axis into `[a]`, keeps the dropped axis as a unit one
  (`[a]` → `[a, 1]`, a shape cast), computes on the column, and lays the column back along the `b` features
  (`[a, 1]` → `[a, b]`, a broadcast). Read at `(p, c)` these three are: the vector at `p`; the column at `(p, 0)`; the sum
  over `k` of the array's entries `(p, k)`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx
open scoped BigOperators

section Layout
variable {α : Type}

/-- An `[a]` vector cast to the column `[a, 1]` reads, at `(p, u)`, the vector at `p`, whatever the unit coordinate `u`:
    both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- At the ideal values the f32 sum along the second axis of an `[a, b]` array, its accumulator the zero word (the sum's
    neutral element, which the reading drops), is at row `p` the sum over the `b` entries of that row: the index the
    reduction inserts coordinate `k` into, over `p`, is `(p, k)`. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  apply Fin.ext
  match d with
  | ⟨0, _⟩ => rfl
  | ⟨1, _⟩ => rfl

/-- A square root at an index is the ideal square root of the element. -/
theorem sqrt_apply {s : Shape} {φ : FTy} (a : FVec Ideal s φ) (i : s.Idx) : sqrt a i = Ideal.sqrt (a i) := rfl

end Cert.LibKeepdims

end
-- ==== Proof.BlockValue.lean ====
/-
  What the kernel body's arithmetic computes on one block of 8 000 rows, read at the extended reals.

  Per row `p` of the block: the lane sum of the four entries, kept as a column and divided by the word of 4, is the
  row's mean; the column laid back along the four features and subtracted gives the centred entries; the lane sum of
  the products of centred entries, times the word nearest 1/3, is a covariance (the variance when both factors are the
  same array). The body then combines the two means, the two variances and the covariance pointwise, in exactly the
  order the row loss is spelt, so the loss column at `(p, q)` is the loss of row `p`. Summing that column along the rows
  and adding the loaded accumulator is the accumulator plus the sum of the block's 8 000 row losses.

  The flag: `v ≠ v` is false at every extended real, so every comparison array is the constant 0, widened and converted
  it is the real 0, and a maximum from the word of -∞ over a nonempty set of zeros is 0; the block's flag is 0.
  A flag step is the pointwise maximum with the stored flag, and the two initial stores are the zero word, which is 0.
-/
import proofs.«112034_j21938692948601_1_alg».proof.Proof.RowLoss
import proofs.«112034_j21938692948601_1_alg».proof.Proof.LibKeepdims
import proofs.«112034_j21938692948601_1_alg».proof.Proof.LibGuardZero
import proofs.«112034_j21938692948601_1_alg».proof.Proof.Gen.KernelIdeal.Skeleton

noncomputable section

namespace Cert.KernelIdeal.BlockValue

open Idealize.ShloMosaic Idealize.ShloMosaic.ValueIdx
open Cert.KernelIdeal Cert.KernelIdeal.Gen
open Cert.LibKeepdims Cert.LibGuardZero Cert.Ssim
open scoped BigOperators

/-! ## The means and the centred entries -/

/-- The first array's mean column at `(p, q)`: the lane sum of row `p`, read through the cast to a column, divided by
    the word of 4. -/
theorem mean_col (x : Vec Ideal S8000x4 .f32) (p : Fin 8000) (q : Fin 1) :
    k0_pay4 x (ix2 p q) = rowMean (rowOf x p) := by
  unfold k0_pay4
  refine (divf_apply _ _ _).trans ?_
  refine congrArg₂ Ideal.div ?_ rfl
  refine (shapeCast_a_a1_apply _ _ p q).trans ?_
  exact laneSum_apply x _ _ _ p

/-- The second array's mean column, the same reading. -/
theorem mean_col' (x : Vec Ideal S8000x4 .f32) (p : Fin 8000) (q : Fin 1) :
    k0_pay5 x (ix2 p q) = rowMean (rowOf x p) := by
  unfold k0_pay5
  refine (divf_apply _ _ _).trans ?_
  refine congrArg₂ Ideal.div ?_ rfl
  refine (shapeCast_a_a1_apply _ _ p q).trans ?_
  exact laneSum_apply x _ _ _ p

/-- The first array centred: at `(p, k)` the entry minus the mean column's entry of row `p`, which the broadcast along
    the features reads at `(p, 0)`. -/
theorem centred (x : Vec Ideal S8000x4 .f32) (p : Fin 8000) (k : Fin 4) :
    k0_pay6 x (ix2 p k) = x (ix2 p k) - rowMean (rowOf x p) := by
  unfold k0_pay6
  refine (subf_apply _ _ _).trans ?_
  refine congrArg₂ (· - ·) rfl ?_
  refine (broadcastTo_a1_ab_apply _ _ p k).trans ?_
  exact mean_col x p 0

/-- The second array centred, the same reading. -/
theorem centred' (x : Vec Ideal S8000x4 .f32) (p : Fin 8000) (k : Fin 4) :
    k0_pay7 x (ix2 p k) = x (ix2 p k) - rowMean (rowOf x p) := by
  unfold k0_pay7
  refine (subf_apply _ _ _).trans ?_
  refine congrArg₂ (· - ·) rfl ?_
  refine (broadcastTo_a1_ab_apply _ _ p k).trans ?_
  exact mean_col' x p 0

/-! ## The variances, the covariance term and the mean term -/

/-- The first array's variance column at `(p, q)`: the lane sum of the squared centred entries of row `p`, times the
    word nearest 1/3. -/
theorem var_col (x : Vec Ideal S8000x4 .f32) (p : Fin 8000) (q : Fin 1) :
    k0_pay8 x (ix2 p q) = rowCov (rowOf x p) (rowOf x p) := by
  unfold k0_pay8
  refine (mulf_apply _ _ _).trans ?_
  refine congrArg₂ (· * ·) ?_ rfl
  refine (shapeCast_a_a1_apply _ _ p q).trans ?_
  refine (laneSum_apply _ _ _ _ p).trans ?_
  refine Finset.sum_congr rfl fun k _ => ?_
  refine (mulf_apply _ _ _).trans ?_
  exact congrArg₂ (· * ·) (centred x p k) (centred x p k)

/-- The second array's variance column, the same reading. -/
theorem var_col' (x : Vec Ideal S8000x4 .f32) (p : Fin 8000) (q : Fin 1) :
    k0_pay9 x (ix2 p q) = rowCov (rowOf x p) (rowOf x p) := by
  unfold k0_pay9
  refine (mulf_apply _ _ _).trans ?_
  refine congrArg₂ (· * ·) ?_ rfl
  refine (shapeCast_a_a1_apply _ _ p q).trans ?_
  refine (laneSum_apply _ _ _ _ p).trans ?_
  refine Finset.sum_congr rfl fun k _ => ?_
  refine (mulf_apply _ _ _).trans ?_
  exact congrArg₂ (· * ·) (centred' x p k) (centred' x p k)

/-- The covariance term at `(p, q)`: the word of 2 times the covariance of row `p` of the two arrays. -/
theorem cov2_col (x0 x1 : Vec Ideal S8000x4 .f32) (p : Fin 8000) (q : Fin 1) :
    k0_pay11 x0 x1 (ix2 p q)
      = Ideal.ofBits .f32 0x40000000#32 * rowCov (rowOf x0 p) (rowOf x1 p) := by
  unfold k0_pay11
  refine (mulf_apply _ _ _).trans ?_
  refine congrArg₂ (· * ·) rfl ?_
  refine (mulf_apply _ _ _).trans ?_
  refine congrArg₂ (· * ·) ?_ rfl
  refine (shapeCast_a_a1_apply _ _ p q).trans ?_
  refine (laneSum_apply _ _ _ _ p).trans ?_
  refine Finset.sum_congr rfl fun k _ => ?_
  refine (mulf_apply _ _ _).trans ?_
  exact congrArg₂ (· * ·) (centred x0 p k) (centred' x1 p k)

/-- The mean term at `(p, q)`: the word of 2 times the two means of row `p`, plus the word nearest 0.1. -/
theorem mean2_col (x0 x1 : Vec Ideal S8000x4 .f32) (p : Fin 8000) (q : Fin 1) :
    k0_pay10 x0 x1 (ix2 p q)
      = Ideal.ofBits .f32 0x40000000#32 * rowMean (rowOf x0 p) * rowMean (rowOf x1 p)
          + Ideal.ofBits .f32 0x3DCCCCCD#32 := by
  unfold k0_pay10
  refine (addf_apply _ _ _).trans ?_
  refine congrArg₂ (· + ·) ?_ rfl
  refine (mulf_apply _ _ _).trans ?_
  refine congrArg₂ (· * ·) ?_ (mean_col' x1 p q)
  refine (mulf_apply _ _ _).trans ?_
  exact congrArg₂ (· * ·) rfl (mean_col x0 p q)

/-! ## The loss column -/

/-- The loss column at `(p, q)` is the loss of row `p`: the pointwise combination of the six columns is the row loss
    spelt in the same order, each column read by its lemma above. -/
theorem loss_col (x0 x1 : Vec Ideal S8000x4 .f32) (p : Fin 8000) (q : Fin 1) :
    k0_pay12 (k0_pay4 x0) (k0_pay5 x1) (k0_pay8 x0) (k0_pay9 x1) (k0_pay10 x0 x1) (k0_pay11 x0 x1) (ix2 p q)
      = Cert.Ssim.lossAt x0 x1 p := by
  unfold k0_pay12
  refine (subf_apply _ _ _).trans ?_
  refine congrArg₂ (· - ·) rfl ?_
  refine (divf_apply _ _ _).trans ?_
  refine congrArg₂ Ideal.div ?_ ?_
  · refine (mulf_apply _ _ _).trans ?_
    refine congrArg₂ (· * ·) (mean2_col x0 x1 p q) ?_
    refine (addf_apply _ _ _).trans ?_
    exact congrArg₂ (· + ·) (cov2_col x0 x1 p q) rfl
  · refine (addf_apply _ _ _).trans ?_
    refine congrArg₂ (· + ·) ?_ rfl
    refine (mulf_apply _ _ _).trans ?_
    refine congrArg₂ (· * ·) ?_ ?_
    · refine (addf_apply _ _ _).trans ?_
      refine congrArg₂ (· + ·) ?_ rfl
      refine (addf_apply _ _ _).trans ?_
      refine congrArg₂ (· + ·) ?_ ?_
      · refine (mulf_apply _ _ _).trans ?_
        exact congrArg₂ (· * ·) (mean_col x0 p q) (mean_col x0 p q)
      · refine (mulf_apply _ _ _).trans ?_
        exact congrArg₂ (· * ·) (mean_col' x1 p q) (mean_col' x1 p q)
    · refine (addf_apply _ _ _).trans ?_
      refine congrArg₂ (· + ·) ?_ rfl
      refine (addf_apply _ _ _).trans ?_
      exact congrArg₂ (· + ·) (var_col x0 p q) (var_col' x1 p q)

/-! ## The accumulator step -/

/-- The new accumulator: the last cast is the identity; at `(u, v)` the sum is the loaded accumulator plus the
    `[1]` → `[1, 1]` cast of the loss column's sum along the rows, which is the sum of the 8 000 row losses. -/
theorem acc_step (x0 x1 : Vec Ideal S8000x4 .f32) (a : Vec Ideal S1x1 .f32) :
    k0_pay14 (k0_pay4 x0) (k0_pay5 x1) (k0_pay8 x0) (k0_pay9 x1) (k0_pay10 x0 x1) (k0_pay11 x0 x1) a
      = fun j => a j + ∑ p : Fin 8000, Cert.Ssim.lossAt x0 x1 p := by
  unfold k0_pay14
  refine (shapeCast_self _ _).trans ?_
  funext j
  obtain ⟨u, v, rfl⟩ : ∃ (u : Fin 1) (v : Fin 1), j = ix2 u v := ⟨j 0, j 1, eq_ix2 j⟩
  refine (addf_apply _ _ _).trans ?_
  refine congrArg₂ (· + ·) rfl ?_
  refine (shapeCast_a_a1_apply _ _ u v).trans ?_
  refine (rowSum_apply _ _ _ _ u).trans ?_
  exact Finset.sum_congr rfl fun p _ => loss_col x0 x1 p u

/-! ## The flag -/

/-- The flag of a block of rows of four entries: along the features, kept as a column, along the rows, kept as `[1, 1]`. -/
def flag4 (v : FVec Ideal S8000x4 .f32) : FVec Ideal S1x1 .f32 :=
  shapeCast S1x1
    (multiReduction .maximumf [0] S1
      (shapeCast S8000x1
        (multiReduction .maximumf [1] S8000 (sitofp .f32 (extui 32 (cmpf .one v v) natLt_1_32)) 0xFF800000#32
          reduces_S8000x4_S8000 (.inl rfl) rfl)
        shapeCasts_S8000_S8000x1)
      0xFF800000#32 reduces_S8000x1_S1 (.inl rfl) rfl)
    shapeCasts_S1_S1x1

/-- The flag of a column: along the rows, kept as `[1, 1]`. -/
def flag1 (v : FVec Ideal S8000x1 .f32) : FVec Ideal S1x1 .f32 :=
  shapeCast S1x1
    (multiReduction .maximumf [0] S1 (sitofp .f32 (extui 32 (cmpf .one v v) natLt_1_32)) 0xFF800000#32
      reduces_S8000x1_S1 (.inl rfl) rfl)
    shapeCasts_S1_S1x1

/-- The flag of a block of rows is 0: zeros all the way through both maxima and both casts. -/
theorem flag4_zero (v : FVec Ideal S8000x4 .f32) : flag4 v = fun _ => (0 : EReal) := by
  unfold flag4
  rw [selfNe_zero v]
  rw [maxRed_zeros reduces_S8000x4_S8000 (.inl rfl) rfl (by decide)]
  rw [shapeCast_const]
  rw [maxRed_zeros reduces_S8000x1_S1 (.inl rfl) rfl (by decide)]
  rw [shapeCast_const]

/-- The flag of a column is 0, likewise. -/
theorem flag1_zero (v : FVec Ideal S8000x1 .f32) : flag1 v = fun _ => (0 : EReal) := by
  unfold flag1
  rw [selfNe_zero v]
  rw [maxRed_zeros reduces_S8000x1_S1 (.inl rfl) rfl (by decide)]
  rw [shapeCast_const]

/-- The block's flag is the maximum of the flags of the two arrays and of the loss column, each 0. -/
theorem flag_blk (x0 x1 : Vec Ideal S8000x4 .f32) :
    k0_pay13 x0 x1 (k0_pay4 x0) (k0_pay5 x1) (k0_pay8 x0) (k0_pay9 x1) (k0_pay10 x0 x1) (k0_pay11 x0 x1)
      = fun _ => (0 : EReal) := by
  have e : k0_pay13 x0 x1 (k0_pay4 x0) (k0_pay5 x1) (k0_pay8 x0) (k0_pay9 x1) (k0_pay10 x0 x1) (k0_pay11 x0 x1)
      = maximumf (maximumf (flag4 x0) (flag4 x1))
          (flag1 (k0_pay12 (k0_pay4 x0) (k0_pay5 x1) (k0_pay8 x0) (k0_pay9 x1) (k0_pay10 x0 x1) (k0_pay11 x0 x1))) := rfl
  rw [e, flag4_zero, flag4_zero, flag1_zero]
  funext j
  show max (max (0 : EReal) 0) 0 = 0
  rw [max_self, max_self]

/-- A flag step is the pointwise maximum of the stored flag and the block's flag; the cast is the identity. -/
theorem flag_step (f : FVec Ideal S1x1 .f32) (a : Vec Ideal S1x1 .f32) :
    k0_pay1 f a = fun j => max (a j) (f j) := by
  unfold k0_pay1
  exact shapeCast_self _ _

/-- The initial sum: the zero word laid over `[1, 1]`, which is 0; the cast is the identity. -/
theorem zero_sum : (k0_pay2 (F := Ideal)) = fun _ => (0 : EReal) := by
  unfold k0_pay2
  refine (shapeCast_self _ _).trans ?_
  funext j
  exact Ideal.ofBits_zero_f32

/-- The initial flag, the same reading. -/
theorem zero_flag : (k0_pay3 (F := Ideal)) = fun _ => (0 : EReal) := by
  unfold k0_pay3
  refine (shapeCast_self _ _).trans ?_
  funext j
  exact Ideal.ofBits_zero_f32

end Cert.KernelIdeal.BlockValue

end
-- ==== Proof.Accumulate.lean ====
/-
  The running sum over the grid.

  After point `n` the sum accumulator holds the sum of the losses of the first `n + 1` blocks' rows and the flag
  accumulator holds 0: at the first point the sum is `0 + (the first block's losses)`, and each later point adds its own
  block's losses to what the point before left (the maximum of 0 and 0 stays 0). A point's block is rows
  `8000 t … 8000 t + 7999` of the arrays, so its losses are those rows' losses. After the last of the 500 points the sum
  is the total over all 4 000 000 rows, and that point copies both accumulators to the two outputs.
-/
import proofs.«112034_j21938692948601_1_alg».proof.Proof.RowLoss
import proofs.«112034_j21938692948601_1_alg».proof.Proof.Steps
import proofs.«112034_j21938692948601_1_alg».proof.Proof.BlockValue

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.KernelIdeal.Pieces Cert.KernelIdeal.Steps Cert.KernelIdeal.BlockValue
open Cert.Ssim

variable (m : (ℓ : Loc nD τ sig) → Buf (Elt Ideal) ℓ)

/-- The first argument array on core `c`. -/
abbrev argX (c : Dev nD) : (⟨2, ![4000000, 4]⟩ : Shape).Idx → EReal := m ((c : Thread nD τ).loc main_arg0)
/-- The second argument array on core `c`. -/
abbrev argY (c : Dev nD) : (⟨2, ![4000000, 4]⟩ : Shape).Idx → EReal := m ((c : Thread nD τ).loc main_arg1)

/-- The loss of row `p` of point `t`'s blocks is the loss of row `8000 t + p` of the arrays. -/
theorem block_loss (c : Dev nD) (t : Fin cfg0.N) (p : Fin 8000) :
    lossAt (iblk m c 0 t : Vec Ideal S8000x4 .f32) (iblk m c 1 t : Vec Ideal S8000x4 .f32) p
      = lossAt (argX m c) (argY m c) (rowAt t p) := by
  unfold lossAt rowOf
  congr 1
  · funext k; exact iblk0_apply m c t p k
  · funext k; exact iblk1_apply m c t p k

/-- The losses of point `t`'s blocks sum to block `t`'s share of the total. -/
theorem block_sum (c : Dev nD) (t : Fin cfg0.N) :
    ∑ p : Fin 8000, lossAt (iblk m c 0 t : Vec Ideal S8000x4 .f32) (iblk m c 1 t : Vec Ideal S8000x4 .f32) p
      = blockLoss (argX m c) (argY m c) t.val :=
  (Finset.sum_congr rfl fun p _ => block_loss m c t p).trans (blockLoss_of_lt (argX m c) (argY m c) (pt t)).symm

/-- The new sum from the old one at a point. -/
theorem sum_step (c : Dev nD) (t : Fin cfg0.N) (a : Vec Ideal S1x1 .f32) (s : EReal) (ha : a = fun _ => s) :
    sumStep (iblk m c 0 t) (iblk m c 1 t) a = fun _ => s + blockLoss (argX m c) (argY m c) t.val := by
  subst ha
  refine (acc_step (iblk m c 0 t) (iblk m c 1 t) (fun _ => s)).trans ?_
  funext j
  exact congrArg (s + ·) (block_sum m c t)

/-- The new flag from an old one that is 0, at a point. -/
theorem flag_zero (c : Dev nD) (t : Fin cfg0.N) (a : Vec Ideal S1x1 .f32) (ha : a = fun _ => (0 : EReal)) :
    flagStep (iblk m c 0 t) (iblk m c 1 t) a = fun _ => (0 : EReal) := by
  subst ha
  refine (flag_step _ (fun _ => (0 : EReal))).trans ?_
  rw [flag_blk]
  funext j
  exact max_self (0 : EReal)

/-- After point `n`: the sum accumulator at the running sum over the first `n + 1` blocks, the flag accumulator at 0. -/
theorem scratch_after (c : Dev nD) : ∀ (n : ℕ) (h : n < cfg0.N),
    (outsAt0 m c n h).2.2.1 = (fun _ => partialLoss (argX m c) (argY m c) (n + 1))
    ∧ (outsAt0 m c n h).2.2.2 = (fun _ => (0 : EReal))
  | 0, h => by
    obtain ⟨e0, e1⟩ := after_first m c ⟨0, h⟩ (Nat.zero_mod _) (by show ¬(0 % 500 = 499); decide)
    refine ⟨e0.trans ((sum_step m c ⟨0, h⟩ _ 0 zero_sum).trans ?_), e1.trans (flag_zero m c ⟨0, h⟩ _ zero_flag)⟩
    funext j
    show (0 : EReal) + blockLoss (argX m c) (argY m c) 0 = partialLoss (argX m c) (argY m c) (0 + 1)
    rw [partialLoss_succ, partialLoss_zero]
  | n + 1, h => by
    have hlt : n + 1 < 500 := lt_of_lt_of_eq h (show cfg0.N = 500 from N_0)
    obtain ⟨ih0, ih1⟩ := scratch_after c n (Nat.lt_of_succ_lt h)
    have key : (outsAt0 m c (n + 1) h).2.2.1
          = sumStep (iblk m c 0 ⟨n + 1, h⟩) (iblk m c 1 ⟨n + 1, h⟩) (outsAt0 m c n (Nat.lt_of_succ_lt h)).2.2.1
        ∧ (outsAt0 m c (n + 1) h).2.2.2
          = flagStep (iblk m c 0 ⟨n + 1, h⟩) (iblk m c 1 ⟨n + 1, h⟩) (outsAt0 m c n (Nat.lt_of_succ_lt h)).2.2.2 := by
      by_cases h1 : (n + 1) % 500 = 499
      · exact (after_last m c ⟨n + 1, h⟩ (by show ¬((n + 1) % 500 = 0); omega) h1).1
      · exact after_mid m c ⟨n + 1, h⟩ (by show ¬((n + 1) % 500 = 0); omega) h1
    obtain ⟨e0, e1⟩ := key
    refine ⟨e0.trans ((sum_step m c ⟨n + 1, h⟩ _ _ ih0).trans ?_), e1.trans (flag_zero m c ⟨n + 1, h⟩ _ ih1)⟩
    funext j
    exact (partialLoss_succ (argX m c) (argY m c) (n + 1)).symm

/-- After the last point the first output holds the total of all rows' losses and the second output holds 0. -/
theorem outputs_last (c : Dev nD) (t : Fin cfg0.N) (h1 : t.val % 500 = 499) :
    (outsAt0 m c t.val t.isLt).1 = (fun _ => total (argX m c) (argY m c))
    ∧ (outsAt0 m c t.val t.isLt).2.1 = (fun _ => (0 : EReal)) := by
  have hlt : t.val < 500 := lt_of_lt_of_eq t.isLt (show cfg0.N = 500 from N_0)
  obtain ⟨_, e2, e3⟩ := after_last m c t (by omega) h1
  obtain ⟨s0, s1⟩ := scratch_after m c t.val t.isLt
  refine ⟨e2.trans (s0.trans ?_), e3.trans s1⟩
  have h500 : t.val + 1 = 500 := by omega
  funext j
  show partialLoss (argX m c) (argY m c) (t.val + 1) = total (argX m c) (argY m c)
  rw [h500]
  exact partialLoss_all (argX m c) (argY m c)

end Cert.KernelIdeal.Accumulate

end
-- ==== Proof.Tail.lean ====
/-
  The end of the kernel's program: from the two one-entry arrays the region leaves to the scalar result.

  The region leaves two arrays of shape [1,1]: the sum `s` of the losses, and a flag that is 0. Twelve host
  operations follow. The sum is reshaped to a scalar, divided by the word of 4 000 000 and multiplied by the word of 1:
  that is `finish s`, call it `r`. The program then selects between the word of 1 and `r` on the condition
  `(r ≠ r) or (flag > 1/2)`. On the extended reals `r ≠ r` is false (the order is linear, every element equals
  itself), and the flag is 0, which is not above the real 1/2 that the word 0x3F000000 denotes; so the condition is the
  bit 0 and the select returns its second branch, `r`. Of all the float words only that one is evaluated, and only to
  know that it is positive; the others are the same words on both sides.
-/
import proofs.«112034_j21938692948601_1_alg».proof.Proof.RowLoss
import proofs.«112034_j21938692948601_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail
open Cert.KernelIdeal Cert.KernelIdeal.Gen

/-! ## The condition of the select is the bit 0 -/

/-- The f32 word 0x3F000000 (sign 0, exponent field 126, fraction 0) denotes `2^23 · 2^(126 - 127 - 23) = 1/2`. -/
theorem half_val : Ideal.ofBits .f32 0x3F000000#32 = ((1 / 2 : ℝ) : EReal) := by
  simp [Ideal.ofBits, Ideal.ieee]
  rw [← EReal.coe_mul]
  exact congrArg _ (by norm_num)

/-- So it is above zero. -/
theorem half_pos : (0 : EReal) < Ideal.ofBits .f32 0x3F000000#32 := by
  rw [half_val]; exact_mod_cast (by norm_num : (0 : ℝ) < 1 / 2)

/-- "Not equal to itself" is false of every extended real, the infinities included. -/
theorem une_self (r : EReal) : Ideal.cmp .une r r = 0#1 := by
  simp [Ideal.cmp]

/-- Zero is not above the word of 1/2. -/
theorem ogt_zero_half : Ideal.cmp .ogt (0 : EReal) (Ideal.ofBits .f32 0x3F000000#32) = 0#1 := by
  have h : ¬ Ideal.ofBits .f32 0x3F000000#32 < (0 : EReal) := not_lt.mpr half_pos.le
  simp [Ideal.cmp, h]

/-- The select on `(r ≠ r) or (0 > 1/2)`: both bits are 0, their disjunction is 0, and a select on the bit 0 returns
    its second branch. -/
theorem select_tail (a r : EReal) :
    Scalar.select (IntOp.ori (Ideal.cmp .une r r) (Ideal.cmp .ogt (0 : EReal) (Ideal.ofBits .f32 0x3F000000#32))) a r = r := by
  rw [une_self, ogt_zero_half]
  rfl

/-! ## The twelve operations -/

variable (m : (ℓ : Loc nD τ sig) → Buf (Elt Ideal) ℓ)

/-- With the first output array constantly `s` and the second constantly 0 at the region's exit, the program's result
    is `finish s` at the one index of the scalar shape.

    The contents at the exit hold each output array at what the region left there (arrays 2 and 3 of the four windows;
    distinct windows have distinct arrays). Each operation's result is its function of its operands' contents. A reshape
    of a constant function is the same constant. At the scalar index the quotient and the product are `Ideal.div` and
    `*` of the extended reals, which spell `finish s`; the select is `select_tail`. -/
theorem tail_value (c : Dev nD) (s : EReal)
    (h2 : (dats m 0 c).arrAt 2 cfg0.N = fun _ => s) (h3 : (dats m 0 c).arrAt 3 cfg0.N = fun _ => (0 : EReal)) :
    Pipeline.afterTail₀ cfgs (dats m) 0 (V0 m) [hostOps1, hostOps1_1] c main_v8 = fun _ => Cert.Ssim.finish s := by
  -- the exit contents at the two output arrays
  have e2 : Pipeline.withArrays (cfgs 0).spec c (V0 m c) (fun w => (dats m 0 c).arrAt w (cfgs 0).N) (Proc.devRef .tc main_v0_0)
      = fun _ => s := (Pipeline.withArrays_arr spec0 launch0.win.arr_inj c _ _ 2).trans h2
  have e3 : Pipeline.withArrays (cfgs 0).spec c (V0 m c) (fun w => (dats m 0 c).arrAt w (cfgs 0).N) (Proc.devRef .tc main_v0_1)
      = fun _ => (0 : EReal) := (Pipeline.withArrays_arr spec0 launch0.win.arr_inj c _ _ 3).trans h3
  -- the twelve operations as one list, each result read off its operands
  unfold Pipeline.afterTail₀
  simp only [hostOps1, hostOps1_1, List.flatten_cons, List.flatten_nil, List.append_nil, List.cons_append, List.nil_append]
  open StableHlo in after_results
  rw [e2, e3]
  -- at the scalar index: the reshapes of constants are those constants, the arithmetic is `finish s`
  funext j
  show Scalar.select (IntOp.ori (Ideal.cmp .une (Cert.Ssim.finish s) (Cert.Ssim.finish s))
      (Ideal.cmp .ogt (0 : EReal) (Ideal.ofBits .f32 0x3F000000#32))) (Ideal.ofBits .f32 0x3F800000#32) (Cert.Ssim.finish s)
    = Cert.Ssim.finish s
  exact select_tail _ _

end Cert.KernelIdeal.Tail

end
-- ==== Proof.Final.lean ====
/-
  The two output arrays after the region, and the kernel's whole run.

  Each output is a one-entry array with a single block, written back once, after the last grid point. What is written
  back is what that point left in the output's buffer: the total of all rows' losses for the first output, 0 for the
  second. That one block is the whole array, so the arrays end holding exactly those constants. The operations after
  the region then turn them into the result, `1 · (total / 4 000 000)`, and the argument arrays are never written.
-/
import proofs.«112034_j21938692948601_1_alg».proof.Proof.Accumulate
import proofs.«112034_j21938692948601_1_alg».proof.Proof.Tail

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accumulate
open Cert.Ssim

variable (m : (ℓ : Loc nD τ sig) → Buf (Elt Ideal) ℓ) (ρ : Dev nD → PrngReg)

/-- The last grid point. -/
def tLast : Fin cfg0.N := ⟨499, by rw [show cfg0.N = 500 from N_0]; decide⟩

/-- The first output's one write-back writes the constant total: what the last point left in its buffer, read through
    the block, which reads a constant array as that constant. -/
theorem flushed_sum (c : Dev nD) (t : Fin cfg0.N) (hf : (cfg0.win 2).flush t = true) :
    (dats m 0 c).flushed 2 t
      = ((cfg0.win 2).blk t).view.read (Elt Ideal) (fun _ => total (argX m c) (argY m c)) := by
  have h499 : t.val % 500 = 499 := (flush0_2 t).mp hf
  show (cfg0.win 2).cut (grid0.coords t) ((dats m 0 c).after 2 t) = _
  rw [after0_2, (outputs_last m c t h499).1]
  funext y
  rw [View.read_apply]
  exact (cast_eq _ _).symm

/-- The second output's one write-back writes the constant 0. -/
theorem flushed_flag (c : Dev nD) (t : Fin cfg0.N) (hf : (cfg0.win 3).flush t = true) :
    (dats m 0 c).flushed 3 t = ((cfg0.win 3).blk t).view.read (Elt Ideal) (fun _ => (0 : EReal)) := by
  have h499 : t.val % 500 = 499 := (flush0_3 t).mp hf
  show (cfg0.win 3).cut (grid0.coords t) ((dats m 0 c).after 3 t) = _
  rw [after0_3, (outputs_last m c t h499).2]
  funext y
  rw [View.read_apply]
  exact (cast_eq _ _).symm

/-- The first output array ends holding the total: its one block, written back after the last point, is the array. -/
theorem final_sum (c : Dev nD) : (dats m 0 c).arrAt 2 cfg0.N = fun _ => total (argX m c) (argY m c) :=
  (dats m 0 c).arrAt_eq_of_cover 2 (fun _ => total (argX m c) (argY m c)) (flushed_sum m c) fun i =>
    ⟨tLast, (flush0_2 tLast).mpr rfl, by
      show i ∈ ((View.whole main_v0_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The second output array ends holding 0. -/
theorem final_flag (c : Dev nD) : (dats m 0 c).arrAt 3 cfg0.N = fun _ => (0 : EReal) :=
  (dats m 0 c).arrAt_eq_of_cover 3 (fun _ => (0 : EReal)) (flushed_flag m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The kernel's run at the extended reals: every weakly fair execution ends with the result buffer at
    `1 · (total / 4 000 000)` of the argument arrays, and the argument arrays unchanged. -/
theorem run : θ_run defs (onTc (τ := τ) (main (F := Ideal))) ⟨m, fun _ => 0, ρ⟩ fun r => ∀ c : Dev nD,
      r.2.mem ((c : Thread nD τ).loc main_v8) = (fun _ => result (argX m c) (argY m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 rfl (by decide))).trans
        (Cert.KernelIdeal.Tail.tail_value m c _ (final_sum m c) (final_flag m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.lean ====
/-
  The kernel sums, block by block over a grid of 500 points, the losses of the rows of two arrays of 4 000 000 rows
  of four entries, and its program ends with `1 · (sum / 4 000 000)`; the reference computes every row's loss at once,
  sums them all, and ends the same way. A row's loss is the same expression of that row in both programs (the same
  operations in the same order on the same float words), and both guards against a number that differs from itself
  are never taken on the extended reals, where every number equals itself. So the two results differ only in how one
  finite sum of extended reals is grouped — 500 blocks of 8 000 rows against 4 000 000 rows — and addition of extended
  reals is commutative and associative, at the infinities too. Finiteness of the inputs is not used.

  The three frame claims: the kernel's two programs by their generated frames, the reference by its generated run with
  the result dropped. The idealization rewrote nothing, so what it preserves is trivially true.
-/
import proofs.«112034_j21938692948601_1_alg».proof.Defs
import proofs.«112034_j21938692948601_1_alg».proof.Proof.Gen.Kernel
import proofs.«112034_j21938692948601_1_alg».proof.Proof.Gen.Kernel.Skeleton
import proofs.«112034_j21938692948601_1_alg».proof.Proof.Gen.Kernel.Launch
import proofs.«112034_j21938692948601_1_alg».proof.Proof.Gen.Kernel.Points
import proofs.«112034_j21938692948601_1_alg».proof.Proof.Gen.Kernel.Frame
import proofs.«112034_j21938692948601_1_alg».proof.Proof.Gen.KernelIdeal
import proofs.«112034_j21938692948601_1_alg».proof.Proof.Gen.KernelIdeal.Skeleton
import proofs.«112034_j21938692948601_1_alg».proof.Proof.Gen.KernelIdeal.Launch
import proofs.«112034_j21938692948601_1_alg».proof.Proof.Gen.KernelIdeal.Points
import proofs.«112034_j21938692948601_1_alg».proof.Proof.Gen.KernelIdeal.Frame
import proofs.«112034_j21938692948601_1_alg».proof.Proof.Gen.ReferenceIdeal
import proofs.«112034_j21938692948601_1_alg».proof.Proof.Gen.Pre_finite_inputs
import proofs.«112034_j21938692948601_1_alg».proof.Proof.Gen.ReferenceIdeal.Run
import proofs.«112034_j21938692948601_1_alg».proof.Proof.Gen.ReferenceIdeal.Read
import proofs.«112034_j21938692948601_1_alg».proof.Proof.RefValue
import proofs.«112034_j21938692948601_1_alg».proof.Proof.Final
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel :=
  fun m ρ _ => Cert.Kernel.Gen.frame m ρ

/-- So does the kernel read at the extended reals. -/
theorem frame_ki : Cert.frame_KernelIdeal :=
  fun m ρ _ => Cert.KernelIdeal.Gen.frame m ρ

/-- The reference's run, with the statement about its result dropped. -/
theorem frame_ri : Cert.frame_ReferenceIdeal :=
  fun m ρ _ =>
    (θ_run Cert.ReferenceIdeal.defs _ _).mono (fun _ h c => (h c).2) (Cert.ReferenceIdeal.Value.run (F := Ideal) m ρ)

/-- From memories that agree on the two arguments, both programs end with `1 · (total / 4 000 000)` of them. -/
theorem algebraic : Cert.algebraic_KernelIdeal_ReferenceIdeal := by
  intro m ρ m' ρ' _ hagree
  refine ⟨fun c => fun _ => Cert.Ssim.result (Cert.KernelIdeal.Accumulate.argX m c) (Cert.KernelIdeal.Accumulate.argY m c),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v64_eq, Cert.ReferenceIdeal.RefValue.ref_result,
    (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
